-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x192x192 : Shape := ⟨4, ![16, 32, 192, 192]⟩
abbrev S_ : Shape := ⟨0, ![]⟩

class Facts : Prop where
  bcast_S_S16x32x192x192 : S_.BroadcastsInDim S16x32x192x192 (![] : Fin 0 → Fin S16x32x192x192.rank)
  reducesTo_S16x32x192x192_S_d0_1_2_3 : S16x32x192x192.ReducesTo [0, 1, 2, 3] S_
  h_S_ : 0 < S_.numel

variable [Facts]

def fn {F : FTy → Type} [FloatOps F] (main_arg0 : FVec F S16x32x192x192 .f32) : IVec S_ 1 :=
  let main_v0 : FVec F S16x32x192x192 .f32 := Host.absf main_arg0
  let main_cst : FVec F S_ .f32 := constant S_ .f32 0x7F800000#32
  let main_v1 : FVec F S16x32x192x192 .f32 := broadcastInDim S16x32x192x192 ![] bcast_S_S16x32x192x192 main_cst
  let main_v2 : IVec S16x32x192x192 1 := cmpf .olt main_v0 main_v1
  let main_c : IVec S_ 1 := constantI S_ 1 1#1
  let main_v3 : IVec S_ 1 := (fun x v => Host.reduce IntOp.andi x v reducesTo_S16x32x192x192_S_d0_1_2_3 h_S_) main_v2 main_c
  main_v3
-- ==== Kernel.lean ====
abbrev S16x32x192x192 : Shape := ⟨4, ![16, 32, 192, 192]⟩
abbrev S16x288x192x192 : Shape := ⟨4, ![16, 288, 192, 192]⟩
abbrev S1x32x192x192 : Shape := ⟨4, ![1, 32, 192, 192]⟩

abbrev nBuf : Space → Nat
  | .hbm => 2
  | .vmem => 4
  | .smem => 0
  | _ => 0

abbrev bufTy : (tb : Table) → Fin (tcTables nBuf tb) → BufTy
  | .hbm, ⟨0, _⟩ => ⟨S16x32x192x192, .f32⟩
  | .hbm, ⟨1, _⟩ => ⟨S16x288x192x192, .f32⟩
  | .local _ .vmem, ⟨0, _⟩ => ⟨S1x32x192x192, .f32⟩
  | .local _ .vmem, ⟨1, _⟩ => ⟨S1x32x192x192, .f32⟩
  | .local _ .vmem, ⟨2, _⟩ => ⟨S1x32x192x192, .f32⟩
  | .local _ .vmem, ⟨3, _⟩ => ⟨S1x32x192x192, .f32⟩
  | _, _ => ⟨S16x32x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 9], ![false, false]⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_3 : BitVec 32 := 0#32
  let v3 : BitVec 1 := Scalar.cmpi .ne v2 c0_i32_3
  v3

def k0_cond2 (i : grid0.Coords) : BitVec 1 :=
  let arg1 : BitVec 32 := BitVec.ofNat 32 (i 1).val
  let c1_i32 : BitVec 32 := 1#32
  let v4 : BitVec 1 := Scalar.cmpi .eq arg1 c1_i32
  let v5 : BitVec 32 := Scalar.extui v4
  let c0_i32_4 : BitVec 32 := 0#32
  let v6 : BitVec 1 := Scalar.cmpi .ne v5 c0_i32_4
  v6

def k0_cond3 (i : grid0.Coords) : BitVec 1 :=
  let arg1 : BitVec 32 := BitVec.ofNat 32 (i 1).val
  let c2_i32 : BitVec 32 := 2#32
  let v7 : BitVec 1 := Scalar.cmpi .eq arg1 c2_i32
  let v8 : BitVec 32 := Scalar.extui v7
  let c0_i32_5 : BitVec 32 := 0#32
  let v9 : BitVec 1 := Scalar.cmpi .ne v8 c0_i32_5
  v9

def k0_cond4 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_6 : BitVec 32 := 0#32
  let v12 : BitVec 1 := Scalar.cmpi .ne v11 c0_i32_6
  v12

def k0_cond5 (i : grid0.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_7 : BitVec 32 := 0#32
  let v15 : BitVec 1 := Scalar.cmpi .ne v14 c0_i32_7
  v15

def k0_cond6 (i : grid0.Coords) : BitVec 1 :=
  let arg1 : BitVec 32 := BitVec.ofNat 32 (i 1).val
  let c5_i32 : BitVec 32 := 5#32
  let v16 : BitVec 1 := Scalar.cmpi .eq arg1 c5_i32
  let v17 : BitVec 32 := Scalar.extui v16
  let c0_i32_8 : BitVec 32 := 0#32
  let v18 : BitVec 1 := Scalar.cmpi .ne v17 c0_i32_8
  v18

def k0_cond7 (i : grid0.Coords) : BitVec 1 :=
  let arg1 : BitVec 32 := BitVec.ofNat 32 (i 1).val
  let c6_i32 : BitVec 32 := 6#32
  let v19 : BitVec 1 := Scalar.cmpi .eq arg1 c6_i32
  let v20 : BitVec 32 := Scalar.extui v19
  let c0_i32_9 : BitVec 32 := 0#32
  let v21 : BitVec 1 := Scalar.cmpi .ne v20 c0_i32_9
  v21

def k0_cond8 (i : grid0.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_10 : BitVec 32 := 0#32
  let v24 : BitVec 1 := Scalar.cmpi .ne v23 c0_i32_10
  v24

def k0_cond9 (i : grid0.Coords) : BitVec 1 :=
  let arg1 : BitVec 32 := BitVec.ofNat 32 (i 1).val
  let c8_i32 : BitVec 32 := 8#32
  let v25 : BitVec 1 := Scalar.cmpi .eq arg1 c8_i32
  let v26 : BitVec 32 := Scalar.extui v25
  let c0_i32_11 : BitVec 32 := 0#32
  let v27 : BitVec 1 := Scalar.cmpi .ne v26 c0_i32_11
  v27

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x192x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x192x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x32x192x192_S1x32x192x192_0_0_0_0 : ∀ a, (![0, 0, 0, 0] : Fin 4 → Nat) a + S1x32x192x192.size a ≤ S1x32x192x192.size a
  h_S1x32x192x192 : 0 < S1x32x192x192.numel
  rotates_S1x32x192x192_d2 : S1x32x192x192.Rotates 2 none
  iota_S1x32x192x192_d2_w32 : S1x32x192x192.Iotas .tc 32 [2]
  rotates_S1x32x192x192_d3 : S1x32x192x192.Rotates 3 none
  iota_S1x32x192x192_d3_w32 : S1x32x192x192.Iotas .tc 32 [3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x192x192.size a ≤ S16x32x192x192.size a
  hwx0_0 : ∀ i : grid0.Coords, EltTy.bits .f32 = 32 ∨ (Rect.block (s := S16x32x192x192) S1x32x192x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x192x192.size a ≤ S16x288x192x192.size a
  hwx0_1 : ∀ i : grid0.Coords, EltTy.bits .f32 = 32 ∨ (Rect.block (s := S16x288x192x192) S1x32x192x192.size (cc0_transform_1 i) (hinb0_1 i)).WholeWords (EltTy.packing .f32)

variable [Facts₀]

abbrev win0_0 : Pipeline.Window sig grid0 :=
  Pipeline.Window.ofSpec (Memref.whole main_arg0) S1x32x192x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x32x192x192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) && !(k0_cond3 i == 1#1) && !(k0_cond4 i == 1#1) && !(k0_cond5 i == 1#1) && !(k0_cond6 i == 1#1) && !(k0_cond7 i == 1#1) && !(k0_cond8 i == 1#1) && !(k0_cond9 i == 1#1) | ⟨_ + 2, h⟩ => absurd h (Nat.not_lt.2 (Nat.le_add_left _ _))

class Facts : Prop extends Facts₀ where

variable [Facts]
-- ==== ReferenceIdeal.lean ====
abbrev S16x32x192x192 : Shape := ⟨4, ![16, 32, 192, 192]⟩
abbrev S_ : Shape := ⟨0, ![]⟩
abbrev S16x32x194x194 : Shape := ⟨4, ![16, 32, 194, 194]⟩
abbrev S16x288x192x192 : Shape := ⟨4, ![16, 288, 192, 192]⟩

abbrev nBuf : Space → Nat
  | .hbm => 14
  | .vmem => 0
  | .smem => 0
  | _ => 0

abbrev bufTy : (tb : Table) → Fin (tcTables nBuf tb) → BufTy
  | .hbm, ⟨0, _⟩ => ⟨S16x32x192x192, .f32⟩
  | .hbm, ⟨1, _⟩ => ⟨S_, .i32⟩
  | .hbm, ⟨2, _⟩ => ⟨S_, .f32⟩
  | .hbm, ⟨3, _⟩ => ⟨S16x32x194x194, .f32⟩
  | .hbm, ⟨4, _⟩ => ⟨S16x32x192x192, .f32⟩
  | .hbm, ⟨5, _⟩ => ⟨S16x32x192x192, .f32⟩
  | .hbm, ⟨6, _⟩ => ⟨S16x32x192x192, .f32⟩
  | .hbm, ⟨7, _⟩ => ⟨S16x32x192x192, .f32⟩
  | .hbm, ⟨8, _⟩ => ⟨S16x32x192x192, .f32⟩
  | .hbm, ⟨9, _⟩ => ⟨S16x32x192x192, .f32⟩
  | .hbm, ⟨10, _⟩ => ⟨S16x32x192x192, .f32⟩
  | .hbm, ⟨11, _⟩ => ⟨S16x32x192x192, .f32⟩
  | .hbm, ⟨12, _⟩ => ⟨S16x32x192x192, .f32⟩
  | .hbm, ⟨13, _⟩ => ⟨S16x288x192x192, .f32⟩
  | _, _ => ⟨S16x32x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]

class Facts₀ : Prop where
  pads_S16x32x192x192_S16x32x194x194_000_000_110_110 : S16x32x192x192.Pads (![0, 0, 1, 1] : Fin 4 → Nat) ![0, 0, 1, 1] ![0, 0, 0, 0] S16x32x194x194
  h_S_ : 0 < S_.numel
  slices_S16x32x194x194_S16x32x192x192_0_0_1_1 : S16x32x194x194.Slices ![0, 0, 1, 1] S16x32x192x192
  slices_S16x32x194x194_S16x32x192x192_0_0_2_2 : S16x32x194x194.Slices ![0, 0, 2, 2] S16x32x192x192
  slices_S16x32x194x194_S16x32x192x192_0_0_2_1 : S16x32x194x194.Slices ![0, 0, 2, 1] S16x32x192x192
  slices_S16x32x194x194_S16x32x192x192_0_0_2_0 : S16x32x194x194.Slices ![0, 0, 2, 0] S16x32x192x192
  slices_S16x32x194x194_S16x32x192x192_0_0_1_2 : S16x32x194x194.Slices ![0, 0, 1, 2] S16x32x192x192
  slices_S16x32x194x194_S16x32x192x192_0_0_1_0 : S16x32x194x194.Slices ![0, 0, 1, 0] S16x32x192x192
  slices_S16x32x194x194_S16x32x192x192_0_0_0_2 : S16x32x194x194.Slices ![0, 0, 0, 2] S16x32x192x192
  slices_S16x32x194x194_S16x32x192x192_0_0_0_1 : S16x32x194x194.Slices ![0, 0, 0, 1] S16x32x192x192
  slices_S16x32x194x194_S16x32x192x192_0_0_0_0 : S16x32x194x194.Slices ![0, 0, 0, 0] S16x32x192x192
  concatenates_S16x32x192x192_S16x32x192x192_S16x32x192x192_S16x32x192x192_S16x32x192x192_S16x32x192x192_S16x32x192x192_S16x32x192x192_S16x32x192x192_S16x288x192x192_d1 : Shape.Concatenates [S16x32x192x192, S16x32x192x192, S16x32x192x192, S16x32x192x192, S16x32x192x192, S16x32x192x192, S16x32x192x192, S16x32x192x192, S16x32x192x192] S16x288x192x192 1

variable [Facts₀]

class Facts : Prop extends Facts₀ where

variable [Facts]
-- ==== Proof.KernelBranches.lean ====
/-
  What each branch of the body leaves in the output block.

  The body loads the input block x, and exactly one of its nine branches runs at a grid point: the branch of o, the
  point's second coordinate. That branch overwrites the whole output block with one store, so what the block holds
  afterwards is that store's value: x itself in the first branch, and in the others the stored value of that branch as
  a function of x (its rotate-and-mask stages). Stated for any float instance.
-/
import proofs.«105961_j24275155157677_2_alg».proof.Proof.Patched.KernelIdeal.Frame
import Idealize.ShloMosaic.Lib.Pipeline.Value
import Idealize.ShloMosaic.Lib.Tactic

noncomputable section

namespace Cert.Shifts

open Idealize.ShloMosaic Idealize.ShloMosaic.TcCoe Idealize.SL.Sem
open Cert.KernelIdeal Cert.KernelIdeal.Gen Cert.KernelIdeal.GenP

variable {F : FTy → Type} [FloatOps F]

/-- The block's stores and loads start at the origin. -/
theorem origin4 : (![0, 0, 0, 0] : Fin 4 → Nat) = fun _ => 0 := funext fun a => by fin_cases a <;> rfl

/-- Branch 0 (o = 0): the block ends holding the loaded block. -/
theorem branch0_block (c : Dev nD) (i : grid0.Coords) (a2 : Memref sig .tc .vmem S1x32x192x192 .f32) (h2 : a2.IsWhole)
    (a3 : Memref sig .tc .vmem S1x32x192x192 .f32) (h3 : a3.IsWhole)
    (hc0 : cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec F S1x32x192x192 .f32) :
    out0_A_1 c i a2 h2 a3 h3 hc0 hc1 hc2 hc3 hc4 hc5 hc6 hc7 hc8 x0 = x0 := by
  unfold out0_A_1
  rw [View.read_writes_eq_canon _ _ _ (cover0_A_1 c i a2 h2 a3 h3 hc0 hc1 hc2 hc3 hc4 hc5 hc6 hc7 hc8 x0)]
  unfold kernelRun0_A
  dsimp only
  rw [View.canon_unit_zero origin4]
  simp only [View.readAt_eq_ld, h2.read_unread, View.ld_unit_zero (S := S1x32x192x192) origin4]

/-- Branch 1 (o = 1): the block ends holding that branch's stored value of the loaded block. -/
theorem branch1_block (c : Dev nD) (i : grid0.Coords) (a2 : Memref sig .tc .vmem S1x32x192x192 .f32) (h2 : a2.IsWhole)
    (a3 : Memref sig .tc .vmem S1x32x192x192 .f32) (h3 : a3.IsWhole)
    (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec F S1x32x192x192 .f32) :
    out0_B_1 c i a2 h2 a3 h3 hc0 hc1 hc2 hc3 hc4 hc5 hc6 hc7 hc8 x0 = k0_pay2 x0 := by
  unfold out0_B_1
  rw [View.read_writes_eq_canon _ _ _ (cover0_B_1 c i a2 h2 a3 h3 hc0 hc1 hc2 hc3 hc4 hc5 hc6 hc7 hc8 x0)]
  unfold kernelRun0_B
  dsimp only
  rw [View.canon_unit_zero origin4]
  simp only [View.readAt_eq_ld, h2.read_unread, View.ld_unit_zero (S := S1x32x192x192) origin4]

/-- Branch 2 (o = 2): the block ends holding that branch's stored value of the loaded block. -/
theorem branch2_block (c : Dev nD) (i : grid0.Coords) (a2 : Memref sig .tc .vmem S1x32x192x192 .f32) (h2 : a2.IsWhole)
    (a3 : Memref sig .tc .vmem S1x32x192x192 .f32) (h3 : a3.IsWhole)
    (hc0 : ¬cond0_0 i) (hc1 : ¬cond0_1 i) (hc2 : cond0_2 i) (hc3 : ¬cond0_3 i) (hc4 : ¬cond0_4 i) (hc5 : ¬cond0_5 i) (hc6 : ¬cond0_6 i) (hc7 : ¬cond0_7 i) (hc8 : ¬cond0_8 i)
    (x0 : Vec F S1x32x192x192 .f32) :
    out0_C_1 c i a2 h2 a3 h3 hc0 hc1 hc2 hc3 hc4 hc5 hc6 hc7 hc8 x0 = k0_pay3 x0 := by
  unfold out0_C_1
  rw [View.read_writes_eq_canon _ _ _ (cover0_C_1 c i a2 h2 a3 h3 hc0 hc1 hc2 hc3 hc4 hc5 hc6 hc7 hc8 x0)]
  unfold kernelRun0_C
  dsimp only
  rw [View.canon_unit_zero origin4]
  simp only [View.readAt_eq_ld, h2.read_unread, View.ld_unit_zero (S := S1x32x192x192) origin4]

/-- Branch 3 (o = 3): the block ends holding that branch's stored value of the loaded block. -/
theorem branch3_block (c : Dev nD) (i : grid0.Coords) (a2 : Memref sig .tc .vmem S1x32x192x192 .f32) (h2 : a2.IsWhole)
    (a3 : Memref sig .tc .vmem S1x32x192x192 .f32) (h3 : a3.IsWhole)
    (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i) (hc8 : ¬cond0_8 i)
    (x0 : Vec F S1x32x192x192 .f32) :
    out0_D_1 c i a2 h2 a3 h3 hc0 hc1 hc2 hc3 hc4 hc5 hc6 hc7 hc8 x0 = k0_pay4 x0 := by
  unfold out0_D_1
  rw [View.read_writes_eq_canon _ _ _ (cover0_D_1 c i a2 h2 a3 h3 hc0 hc1 hc2 hc3 hc4 hc5 hc6 hc7 hc8 x0)]
  unfold kernelRun0_D
  dsimp only
  rw [View.canon_unit_zero origin4]
  simp only [View.readAt_eq_ld, h2.read_unread, View.ld_unit_zero (S := S1x32x192x192) origin4]

/-- Branch 4 (o = 4): the block ends holding that branch's stored value of the loaded block. -/
theorem branch4_block (c : Dev nD) (i : grid0.Coords) (a2 : Memref sig .tc .vmem S1x32x192x192 .f32) (h2 : a2.IsWhole)
    (a3 : Memref sig .tc .vmem S1x32x192x192 .f32) (h3 : a3.IsWhole)
    (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i) (hc8 : ¬cond0_8 i)
    (x0 : Vec F S1x32x192x192 .f32) :
    out0_E_1 c i a2 h2 a3 h3 hc0 hc1 hc2 hc3 hc4 hc5 hc6 hc7 hc8 x0 = k0_pay5 x0 := by
  unfold out0_E_1
  rw [View.read_writes_eq_canon _ _ _ (cover0_E_1 c i a2 h2 a3 h3 hc0 hc1 hc2 hc3 hc4 hc5 hc6 hc7 hc8 x0)]
  unfold kernelRun0_E
  dsimp only
  rw [View.canon_unit_zero origin4]
  simp only [View.readAt_eq_ld, h2.read_unread, View.ld_unit_zero (S := S1x32x192x192) origin4]

/-- Branch 5 (o = 5): the block ends holding that branch's stored value of the loaded block. -/
theorem branch5_block (c : Dev nD) (i : grid0.Coords) (a2 : Memref sig .tc .vmem S1x32x192x192 .f32) (h2 : a2.IsWhole)
    (a3 : Memref sig .tc .vmem S1x32x192x192 .f32) (h3 : a3.IsWhole)
    (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i) (hc8 : ¬cond0_8 i)
    (x0 : Vec F S1x32x192x192 .f32) :
    out0_F_1 c i a2 h2 a3 h3 hc0 hc1 hc2 hc3 hc4 hc5 hc6 hc7 hc8 x0 = k0_pay6 x0 := by
  unfold out0_F_1
  rw [View.read_writes_eq_canon _ _ _ (cover0_F_1 c i a2 h2 a3 h3 hc0 hc1 hc2 hc3 hc4 hc5 hc6 hc7 hc8 x0)]
  unfold kernelRun0_F
  dsimp only
  rw [View.canon_unit_zero origin4]
  simp only [View.readAt_eq_ld, h2.read_unread, View.ld_unit_zero (S := S1x32x192x192) origin4]

/-- Branch 6 (o = 6): the block ends holding that branch's stored value of the loaded block. -/
theorem branch6_block (c : Dev nD) (i : grid0.Coords) (a2 : Memref sig .tc .vmem S1x32x192x192 .f32) (h2 : a2.IsWhole)
    (a3 : Memref sig .tc .vmem S1x32x192x192 .f32) (h3 : a3.IsWhole)
    (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i) (hc8 : ¬cond0_8 i)
    (x0 : Vec F S1x32x192x192 .f32) :
    out0_G_1 c i a2 h2 a3 h3 hc0 hc1 hc2 hc3 hc4 hc5 hc6 hc7 hc8 x0 = k0_pay7 x0 := by
  unfold out0_G_1
  rw [View.read_writes_eq_canon _ _ _ (cover0_G_1 c i a2 h2 a3 h3 hc0 hc1 hc2 hc3 hc4 hc5 hc6 hc7 hc8 x0)]
  unfold kernelRun0_G
  dsimp only
  rw [View.canon_unit_zero origin4]
  simp only [View.readAt_eq_ld, h2.read_unread, View.ld_unit_zero (S := S1x32x192x192) origin4]

/-- Branch 7 (o = 7): the block ends holding that branch's stored value of the loaded block. -/
theorem branch7_block (c : Dev nD) (i : grid0.Coords) (a2 : Memref sig .tc .vmem S1x32x192x192 .f32) (h2 : a2.IsWhole)
    (a3 : Memref sig .tc .vmem S1x32x192x192 .f32) (h3 : a3.IsWhole)
    (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i) (hc8 : ¬cond0_8 i)
    (x0 : Vec F S1x32x192x192 .f32) :
    out0_H_1 c i a2 h2 a3 h3 hc0 hc1 hc2 hc3 hc4 hc5 hc6 hc7 hc8 x0 = k0_pay8 x0 := by
  unfold out0_H_1
  rw [View.read_writes_eq_canon _ _ _ (cover0_H_1 c i a2 h2 a3 h3 hc0 hc1 hc2 hc3 hc4 hc5 hc6 hc7 hc8 x0)]
  unfold kernelRun0_H
  dsimp only
  rw [View.canon_unit_zero origin4]
  simp only [View.readAt_eq_ld, h2.read_unread, View.ld_unit_zero (S := S1x32x192x192) origin4]

/-- Branch 8 (o = 8): the block ends holding that branch's stored value of the loaded block. -/
theorem branch8_block (c : Dev nD) (i : grid0.Coords) (a2 : Memref sig .tc .vmem S1x32x192x192 .f32) (h2 : a2.IsWhole)
    (a3 : Memref sig .tc .vmem S1x32x192x192 .f32) (h3 : a3.IsWhole)
    (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : cond0_8 i)
    (x0 : Vec F S1x32x192x192 .f32) :
    out0_I_1 c i a2 h2 a3 h3 hc0 hc1 hc2 hc3 hc4 hc5 hc6 hc7 hc8 x0 = k0_pay1 x0 := by
  unfold out0_I_1
  rw [View.read_writes_eq_canon _ _ _ (cover0_I_1 c i a2 h2 a3 h3 hc0 hc1 hc2 hc3 hc4 hc5 hc6 hc7 hc8 x0)]
  unfold kernelRun0_I
  dsimp only
  sl_unfold_words
  rw [View.canon_unit_zero origin4]
  simp only [View.readAt_eq_ld, h2.read_unread, View.ld_unit_zero (S := S1x32x192x192) origin4]

end Cert.Shifts

end
-- ==== Proof.ShiftSpec.lean ====
/-
  The specification of the nine zero-filled shifts.

  For a stack of images x : [B, 32, 192, 192] let P be x surrounded by one ring of zeros along the last two axes:
  P (b, c, k, l) = x (b, c, k - 1, l - 1) when 1 ≤ k ≤ 192 and 1 ≤ l ≤ 192, and 0 otherwise. The result
  y : [16, 288, 192, 192] is nine windows of P laid side by side along the channel axis: for channel C = 32 * o + c,
      y (b, C, h, w) = P (b, c, h + rowOff o, w + colOff o),
  where (rowOff o, colOff o) ∈ {0, 1, 2}² is where window o starts: (1, 1) is the image itself, and a start of 1 - s
  along an axis is a shift by s ∈ {-1, 0, 1} along it, the vacated border filled with zeros.
  Nothing is computed with the entries: every entry of y is an entry of x or the number zero.
-/
import Idealize.ShloMosaic.PureOps.Ideal
import Idealize.ShloMosaic.Lib.ValueIdx

noncomputable section

namespace Cert.Shifts

open Idealize.ShloMosaic Idealize.ShloMosaic.ValueIdx

/-- A stack of B images of 32 channels, 192 rows and 192 columns: the argument has B = 16, one grid point's block B = 1. -/
abbrev Img (B : Nat) : Shape := ⟨4, ![B, 32, 192, 192]⟩

/-- The result: nine stacks side by side along the channel axis. -/
abbrev SOut : Shape := ⟨4, ![16, 288, 192, 192]⟩

/-- The image surrounded by one ring of zeros, read at natural-number coordinates (k, l) of the padded
    [194, 194] plane: the image's entry (k - 1, l - 1) inside the ring, zero on it and beyond. -/
def padded {B : Nat} (x : (Img B).Idx → EReal) (b : Fin B) (c : Fin 32) (k l : Nat) : EReal :=
  if hl : 1 ≤ l ∧ l ≤ 192 then
    if hk : 1 ≤ k ∧ k ≤ 192 then x (ix4 b c ⟨k - 1, by omega⟩ ⟨l - 1, by omega⟩) else 0
  else 0

/-- The padded plane of image (u, c) of one stack is that of image (b, c) of another when the two images agree entry by entry. -/
theorem padded_congr {B B' : Nat} {v : (Img B).Idx → EReal} {x : (Img B').Idx → EReal} {u : Fin B} {b : Fin B'} {c : Fin 32}
    (hv : ∀ k l : Fin 192, v (ix4 u c k l) = x (ix4 b c k l)) (k l : Nat) : padded v u c k l = padded x b c k l := by
  unfold padded
  by_cases hl : 1 ≤ l ∧ l ≤ 192
  · by_cases hk : 1 ≤ k ∧ k ≤ 192
    · rw [dif_pos hl, dif_pos hk, dif_pos hl, dif_pos hk, hv]
    · rw [dif_pos hl, dif_neg hk, dif_pos hl, dif_neg hk]
  · rw [dif_neg hl, dif_neg hl]

/-- Where window o starts along the rows of the padded plane: 1 - sx for the o-th shift (sx, sy) of
    (0,0), (-1,-1), (-1,0), (-1,1), (0,-1), (0,1), (1,-1), (1,0), (1,1). -/
def rowOff : Fin 9 → Nat := ![1, 2, 2, 2, 1, 1, 0, 0, 0]

/-- Where window o starts along the columns of the padded plane: 1 - sy. -/
def colOff : Fin 9 → Nat := ![1, 2, 1, 0, 2, 0, 2, 1, 0]

/-- One window of the padded image: entry (b, c, h, w) is the padded plane's entry (h + dr, w + dc). -/
def window {B : Nat} (x : (Img B).Idx → EReal) (dr dc : Nat) (b : Fin B) (c : Fin 32) (h w : Fin 192) : EReal :=
  padded x b c (h.val + dr) (w.val + dc)

/-- The nine windows side by side along the channel axis: channel 32 * o + c of the result is channel c of window o. -/
def shifts (x : (Img 16).Idx → EReal) : SOut.Idx → EReal := fun j =>
  window x (rowOff ⟨(j 1).val / 32, by have h288 : (j 1).val < 288 := (j 1).isLt; omega⟩)
    (colOff ⟨(j 1).val / 32, by have h288 : (j 1).val < 288 := (j 1).isLt; omega⟩)
    (j 0) ⟨(j 1).val % 32, Nat.mod_lt _ (by decide)⟩ (j 2) (j 3)

/-- The result at channel 32 * o + c, by coordinates. -/
theorem shifts_apply (x : (Img 16).Idx → EReal) (b : Fin 16) (o : Fin 9) (c : Fin 32) (h w : Fin 192) :
    shifts x (ix4 b (⟨32 * o.val + c.val, by omega⟩ : Fin 288) h w) = window x (rowOff o) (colOff o) b c h w := by
  have hq : (32 * o.val + c.val) / 32 = o.val := by omega
  have hr : (32 * o.val + c.val) % 32 = c.val := by omega
  show window x (rowOff ⟨(32 * o.val + c.val) / 32, _⟩) (colOff ⟨(32 * o.val + c.val) / 32, _⟩) b
    ⟨(32 * o.val + c.val) % 32, _⟩ h w = _
  congr 1 <;> first | exact congrArg _ (Fin.ext hq) | exact Fin.ext hr

/-! ## A window as a row reading followed by a column reading

A map R of blocks READS ROWS AT d when row h of R v is row h + d - 1 of v where 1 ≤ h + d ≤ 192 and zero elsewhere
(d = 1: R v has v's rows; d = 0: v's rows moved towards larger row numbers, a zero row entering first; d = 2: towards
smaller ones, a zero row entering last); likewise for columns. A row reading at dr followed by a column reading at
dc is the window of the padded image that starts at (dr, dc). -/

/-- R reads rows at d. -/
def ReadsRows {B : Nat} (R : ((Img B).Idx → EReal) → ((Img B).Idx → EReal)) (d : Nat) : Prop :=
  ∀ (v : (Img B).Idx → EReal) (u : Fin B) (c : Fin 32) (h w : Fin 192),
    R v (ix4 u c h w) = if hk : 1 ≤ h.val + d ∧ h.val + d ≤ 192 then v (ix4 u c ⟨h.val + d - 1, by omega⟩ w) else 0

/-- C reads columns at d. -/
def ReadsCols {B : Nat} (C : ((Img B).Idx → EReal) → ((Img B).Idx → EReal)) (d : Nat) : Prop :=
  ∀ (v : (Img B).Idx → EReal) (u : Fin B) (c : Fin 32) (h w : Fin 192),
    C v (ix4 u c h w) = if hk : 1 ≤ w.val + d ∧ w.val + d ≤ 192 then v (ix4 u c h ⟨w.val + d - 1, by omega⟩) else 0

/-- Leaving the rows where they are is reading them at 1. -/
theorem readsRows_id {B : Nat} : ReadsRows (B := B) (fun v => v) 1 := fun v u c h w => by
  have hk : 1 ≤ h.val + 1 ∧ h.val + 1 ≤ 192 := by have := h.isLt; omega
  rw [dif_pos hk]
  exact congrArg (fun k : Fin 192 => v (ix4 u c k w)) (Fin.ext (show h.val = h.val + 1 - 1 by omega))

/-- Leaving the columns where they are is reading them at 1. -/
theorem readsCols_id {B : Nat} : ReadsCols (B := B) (fun v => v) 1 := fun v u c h w => by
  have hk : 1 ≤ w.val + 1 ∧ w.val + 1 ≤ 192 := by have := w.isLt; omega
  rw [dif_pos hk]
  exact congrArg (fun k : Fin 192 => v (ix4 u c h k)) (Fin.ext (show w.val = w.val + 1 - 1 by omega))

/-- Rows read at dr, then columns read at dc: the window of the padded image starting at (dr, dc). -/
theorem window_of_readings {B : Nat} {R C : ((Img B).Idx → EReal) → ((Img B).Idx → EReal)} {dr dc : Nat}
    (hR : ReadsRows R dr) (hC : ReadsCols C dc) (v : (Img B).Idx → EReal) (u : Fin B) (c : Fin 32) (h w : Fin 192) :
    C (R v) (ix4 u c h w) = window v dr dc u c h w := by
  rw [hC (R v) u c h w]
  unfold window padded
  by_cases hl : 1 ≤ w.val + dc ∧ w.val + dc ≤ 192
  · rw [dif_pos hl, dif_pos hl, hR v u c h ⟨w.val + dc - 1, by omega⟩]
  · rw [dif_neg hl, dif_neg hl]

end Cert.Shifts

end
-- ==== Proof.RotateMask.lean ====
/-
  One stage of a zero-filled shift, as the kernel computes it: rotate the block along an axis by n positions (cyclically),
  then keep an entry only where its coordinate k on that axis has 0 ≤ k - s < 192 and put zero elsewhere. With
  (n, s) = (1, 1) the rotation brings entry k - 1 to position k and the mask clears position 0, which received the
  wrapped-around last entry: a shift by one towards larger coordinates, zero entering at the start. With
  (n, s) = (191, -1) the rotation brings entry k + 1 to position k (191 ≡ -1 mod 192) and the mask clears position 191:
  a shift by one towards smaller coordinates, zero entering at the end.

  Read at an index this is a window of the axis extended by one zero on each side: with d = 1 - s ∈ {0, 2},
  the stage's entry at coordinate k is the operand's entry k + d - 1 when 1 ≤ k + d ≤ 192, and zero otherwise.
-/
import Idealize.ShloMosaic.PureOps
import Idealize.ShloMosaic.PureOps.Ideal
import Idealize.ShloMosaic.PureOps.Ideal.Laws
import Idealize.ShloMosaic.Lib.ValueIdx
import proofs.«105961_j24275155157677_2_alg».proof.Proof.ShiftSpec

noncomputable section

namespace Cert.Shifts

open Idealize.ShloMosaic Idealize.ShloMosaic.ValueIdx

section Stage

variable {F : FTy → Type} [FloatOps F]

/-- The stage: rotate along axis a by n, keep where 0 ≤ (coordinate on a) - s < ext, zero elsewhere. -/
def rotMask {S : Shape} (a : Fin S.rank) (n s ext : BitVec 32) (hr : S.Rotates a none) (hi : S.Iotas .tc 32 [a])
    (v : FVec F S .f32) : FVec F S .f32 :=
  select
    (andi (cmpi .sge (subi (iota .tc S 32 [a] hi) (broadcast S s)) (broadcast S 0#32))
      (cmpi .slt (subi (iota .tc S 32 [a] hi) (broadcast S s)) (broadcast S ext)))
    (dynamicRotate a n none v hr) (broadcast S (Scalar.ofBits .f32 0x00000000#32))

end Stage

/-- The mask of a shift towards larger coordinates (s = 1) keeps exactly the coordinates k ≥ 1. -/
theorem mask_up : ∀ k : Fin 192,
    IntOp.andi (IntOp.cmpi .sge (IntOp.subi (BitVec.ofNat 32 (0 * 192 + k.val)) 1#32) 0#32)
      (IntOp.cmpi .slt (IntOp.subi (BitVec.ofNat 32 (0 * 192 + k.val)) 1#32) 192#32)
      = if 1 ≤ k.val + 0 ∧ k.val + 0 ≤ 192 then 1#1 else 0#1 := by decide +kernel

/-- Rows shifted towards larger row numbers: row h of the stage is row h - 1 of the operand, row 0 is zero. -/
theorem rowsUp_apply (hr : (Img 1).Rotates 2 none) (hi : (Img 1).Iotas .tc 32 [2]) (v : FVec Ideal (Img 1) .f32)
    (u : Fin 1) (c : Fin 32) (h w : Fin 192) :
    rotMask (S := Img 1) 2 1#32 1#32 192#32 hr hi v (ix4 u c h w)
      = if hk : 1 ≤ h.val + 0 ∧ h.val + 0 ≤ 192 then v (ix4 u c ⟨h.val + 0 - 1, by omega⟩ w) else 0 := by
  show Scalar.select (IntOp.andi (IntOp.cmpi .sge (IntOp.subi (BitVec.ofNat 32 (0 * 192 + h.val)) 1#32) 0#32)
      (IntOp.cmpi .slt (IntOp.subi (BitVec.ofNat 32 (0 * 192 + h.val)) 1#32) 192#32))
      (dynamicRotate (s := Img 1) 2 1#32 none v hr (ix4 u c h w)) (Ideal.ofBits .f32 0x00000000#32) = _
  rw [mask_up h]
  by_cases hk : 1 ≤ h.val + 0 ∧ h.val + 0 ≤ 192
  · rw [if_pos hk, dif_pos hk, select_one]
    unfold dynamicRotate
    refine congrArg v (funext fun b => ?_)
    match b with
    | ⟨0, _⟩ => rfl
    | ⟨1, _⟩ => rfl
    | ⟨2, _⟩ => exact Fin.ext (by show (h.val + 192 - (1 + 0) % 192) % 192 = h.val + 0 - 1; omega)
    | ⟨3, _⟩ => rfl
  · rw [if_neg hk, dif_neg hk, select_zero, Ideal.ofBits_zero_f32]

/-- The mask of a shift towards smaller coordinates (s = -1) keeps exactly the coordinates k ≤ 190. -/
theorem mask_down : ∀ k : Fin 192,
    IntOp.andi (IntOp.cmpi .sge (IntOp.subi (BitVec.ofNat 32 (0 * 192 + k.val)) 4294967295#32) 0#32)
      (IntOp.cmpi .slt (IntOp.subi (BitVec.ofNat 32 (0 * 192 + k.val)) 4294967295#32) 192#32)
      = if 1 ≤ k.val + 2 ∧ k.val + 2 ≤ 192 then 1#1 else 0#1 := by decide +kernel

/-- Rows shifted towards smaller row numbers: row h of the stage is row h + 1 of the operand, row 191 is zero. -/
theorem rowsDown_apply (hr : (Img 1).Rotates 2 none) (hi : (Img 1).Iotas .tc 32 [2]) (v : FVec Ideal (Img 1) .f32)
    (u : Fin 1) (c : Fin 32) (h w : Fin 192) :
    rotMask (S := Img 1) 2 191#32 4294967295#32 192#32 hr hi v (ix4 u c h w)
      = if hk : 1 ≤ h.val + 2 ∧ h.val + 2 ≤ 192 then v (ix4 u c ⟨h.val + 2 - 1, by omega⟩ w) else 0 := by
  show Scalar.select (IntOp.andi (IntOp.cmpi .sge (IntOp.subi (BitVec.ofNat 32 (0 * 192 + h.val)) 4294967295#32) 0#32)
      (IntOp.cmpi .slt (IntOp.subi (BitVec.ofNat 32 (0 * 192 + h.val)) 4294967295#32) 192#32))
      (dynamicRotate (s := Img 1) 2 191#32 none v hr (ix4 u c h w)) (Ideal.ofBits .f32 0x00000000#32) = _
  rw [mask_down h]
  by_cases hk : 1 ≤ h.val + 2 ∧ h.val + 2 ≤ 192
  · rw [if_pos hk, dif_pos hk, select_one]
    unfold dynamicRotate
    refine congrArg v (funext fun b => ?_)
    match b with
    | ⟨0, _⟩ => rfl
    | ⟨1, _⟩ => rfl
    | ⟨2, _⟩ => exact Fin.ext (by show (h.val + 192 - (191 + 0) % 192) % 192 = h.val + 2 - 1; omega)
    | ⟨3, _⟩ => rfl
  · rw [if_neg hk, dif_neg hk, select_zero, Ideal.ofBits_zero_f32]

/-- Columns shifted towards larger column numbers: column w of the stage is column w - 1 of the operand, column 0 is zero. -/
theorem colsUp_apply (hr : (Img 1).Rotates 3 none) (hi : (Img 1).Iotas .tc 32 [3]) (v : FVec Ideal (Img 1) .f32)
    (u : Fin 1) (c : Fin 32) (h w : Fin 192) :
    rotMask (S := Img 1) 3 1#32 1#32 192#32 hr hi v (ix4 u c h w)
      = if hk : 1 ≤ w.val + 0 ∧ w.val + 0 ≤ 192 then v (ix4 u c h ⟨w.val + 0 - 1, by omega⟩) else 0 := by
  show Scalar.select (IntOp.andi (IntOp.cmpi .sge (IntOp.subi (BitVec.ofNat 32 (0 * 192 + w.val)) 1#32) 0#32)
      (IntOp.cmpi .slt (IntOp.subi (BitVec.ofNat 32 (0 * 192 + w.val)) 1#32) 192#32))
      (dynamicRotate (s := Img 1) 3 1#32 none v hr (ix4 u c h w)) (Ideal.ofBits .f32 0x00000000#32) = _
  rw [mask_up w]
  by_cases hk : 1 ≤ w.val + 0 ∧ w.val + 0 ≤ 192
  · rw [if_pos hk, dif_pos hk, select_one]
    unfold dynamicRotate
    refine congrArg v (funext fun b => ?_)
    match b with
    | ⟨0, _⟩ => rfl
    | ⟨1, _⟩ => rfl
    | ⟨2, _⟩ => rfl
    | ⟨3, _⟩ => exact Fin.ext (by show (w.val + 192 - (1 + 0) % 192) % 192 = w.val + 0 - 1; omega)
  · rw [if_neg hk, dif_neg hk, select_zero, Ideal.ofBits_zero_f32]

/-- Columns shifted towards smaller column numbers: column w of the stage is column w + 1 of the operand, column 191 is zero. -/
theorem colsDown_apply (hr : (Img 1).Rotates 3 none) (hi : (Img 1).Iotas .tc 32 [3]) (v : FVec Ideal (Img 1) .f32)
    (u : Fin 1) (c : Fin 32) (h w : Fin 192) :
    rotMask (S := Img 1) 3 191#32 4294967295#32 192#32 hr hi v (ix4 u c h w)
      = if hk : 1 ≤ w.val + 2 ∧ w.val + 2 ≤ 192 then v (ix4 u c h ⟨w.val + 2 - 1, by omega⟩) else 0 := by
  show Scalar.select (IntOp.andi (IntOp.cmpi .sge (IntOp.subi (BitVec.ofNat 32 (0 * 192 + w.val)) 4294967295#32) 0#32)
      (IntOp.cmpi .slt (IntOp.subi (BitVec.ofNat 32 (0 * 192 + w.val)) 4294967295#32) 192#32))
      (dynamicRotate (s := Img 1) 3 191#32 none v hr (ix4 u c h w)) (Ideal.ofBits .f32 0x00000000#32) = _
  rw [mask_down w]
  by_cases hk : 1 ≤ w.val + 2 ∧ w.val + 2 ≤ 192
  · rw [if_pos hk, dif_pos hk, select_one]
    unfold dynamicRotate
    refine congrArg v (funext fun b => ?_)
    match b with
    | ⟨0, _⟩ => rfl
    | ⟨1, _⟩ => rfl
    | ⟨2, _⟩ => rfl
    | ⟨3, _⟩ => exact Fin.ext (by show (w.val + 192 - (191 + 0) % 192) % 192 = w.val + 2 - 1; omega)
  · rw [if_neg hk, dif_neg hk, select_zero, Ideal.ofBits_zero_f32]

/-! ## The four stages as row and column readings -/

/-- Rows moved towards larger row numbers: a row reading at 0. -/
theorem readsRows_up (hr : (Img 1).Rotates 2 none) (hi : (Img 1).Iotas .tc 32 [2]) :
    ReadsRows (B := 1) (rotMask (F := Ideal) (S := Img 1) 2 1#32 1#32 192#32 hr hi) 0 :=
  fun v u c h w => rowsUp_apply hr hi v u c h w

/-- Rows moved towards smaller row numbers: a row reading at 2. -/
theorem readsRows_down (hr : (Img 1).Rotates 2 none) (hi : (Img 1).Iotas .tc 32 [2]) :
    ReadsRows (B := 1) (rotMask (F := Ideal) (S := Img 1) 2 191#32 4294967295#32 192#32 hr hi) 2 :=
  fun v u c h w => rowsDown_apply hr hi v u c h w

/-- Columns moved towards larger column numbers: a column reading at 0. -/
theorem readsCols_up (hr : (Img 1).Rotates 3 none) (hi : (Img 1).Iotas .tc 32 [3]) :
    ReadsCols (B := 1) (rotMask (F := Ideal) (S := Img 1) 3 1#32 1#32 192#32 hr hi) 0 :=
  fun v u c h w => colsUp_apply hr hi v u c h w

/-- Columns moved towards smaller column numbers: a column reading at 2. -/
theorem readsCols_down (hr : (Img 1).Rotates 3 none) (hi : (Img 1).Iotas .tc 32 [3]) :
    ReadsCols (B := 1) (rotMask (F := Ideal) (S := Img 1) 3 191#32 4294967295#32 192#32 hr hi) 2 :=
  fun v u c h w => colsDown_apply hr hi v u c h w

end Cert.Shifts

end
-- ==== Proof.KernelStored.lean ====
/-
  The kernel's stored values as windows of the padded block.

  At a grid point (b, o) the body loads the block of image b and, in the one branch that o selects, stores a value
  computed from it: the block itself for o = 0, and for the other eight a stage along the rows, a stage along the columns,
  or one after the other — each stage a cyclic rotation by one position followed by a mask that zeroes the position the
  wrapped-around entry lands on. Each stored value is therefore the window of the zero-padded block that starts at
  (rowOff o, colOff o): a row reading followed by a column reading (an absent stage reads at 1).
-/
import proofs.«105961_j24275155157677_2_alg».proof.Proof.Gen.KernelIdeal.Skeleton
import proofs.«105961_j24275155157677_2_alg».proof.Proof.RotateMask

noncomputable section

namespace Cert.Shifts

open Idealize.ShloMosaic Idealize.ShloMosaic.ValueIdx
open Cert.KernelIdeal Cert.KernelIdeal.Gen

/-- o = 0, shift (0, 0): the block as loaded. -/
theorem stored0_apply (v : (Img 1).Idx → EReal) (u : Fin 1) (c : Fin 32) (h w : Fin 192) :
    v (ix4 u c h w) = window v 1 1 u c h w :=
  window_of_readings readsRows_id readsCols_id v u c h w

/-- o = 1, shift (-1, -1): rows and columns both towards smaller numbers. -/
theorem stored1_apply (v : Vec Ideal S1x32x192x192 .f32) (u : Fin 1) (c : Fin 32) (h w : Fin 192) :
    k0_pay2 (F := Ideal) v (ix4 u c h w) = window v 2 2 u c h w :=
  window_of_readings (readsRows_down rotates_S1x32x192x192_d2 iota_S1x32x192x192_d2_w32)
    (readsCols_down rotates_S1x32x192x192_d3 iota_S1x32x192x192_d3_w32) v u c h w

/-- o = 2, shift (-1, 0): rows towards smaller numbers. -/
theorem stored2_apply (v : Vec Ideal S1x32x192x192 .f32) (u : Fin 1) (c : Fin 32) (h w : Fin 192) :
    k0_pay3 (F := Ideal) v (ix4 u c h w) = window v 2 1 u c h w :=
  window_of_readings (readsRows_down rotates_S1x32x192x192_d2 iota_S1x32x192x192_d2_w32) readsCols_id v u c h w

/-- o = 3, shift (-1, 1): rows towards smaller numbers, columns towards larger. -/
theorem stored3_apply (v : Vec Ideal S1x32x192x192 .f32) (u : Fin 1) (c : Fin 32) (h w : Fin 192) :
    k0_pay4 (F := Ideal) v (ix4 u c h w) = window v 2 0 u c h w :=
  window_of_readings (readsRows_down rotates_S1x32x192x192_d2 iota_S1x32x192x192_d2_w32)
    (readsCols_up rotates_S1x32x192x192_d3 iota_S1x32x192x192_d3_w32) v u c h w

/-- o = 4, shift (0, -1): columns towards smaller numbers. -/
theorem stored4_apply (v : Vec Ideal S1x32x192x192 .f32) (u : Fin 1) (c : Fin 32) (h w : Fin 192) :
    k0_pay5 (F := Ideal) v (ix4 u c h w) = window v 1 2 u c h w :=
  window_of_readings readsRows_id (readsCols_down rotates_S1x32x192x192_d3 iota_S1x32x192x192_d3_w32) v u c h w

/-- o = 5, shift (0, 1): columns towards larger numbers. -/
theorem stored5_apply (v : Vec Ideal S1x32x192x192 .f32) (u : Fin 1) (c : Fin 32) (h w : Fin 192) :
    k0_pay6 (F := Ideal) v (ix4 u c h w) = window v 1 0 u c h w :=
  window_of_readings readsRows_id (readsCols_up rotates_S1x32x192x192_d3 iota_S1x32x192x192_d3_w32) v u c h w

/-- o = 6, shift (1, -1): rows towards larger numbers, columns towards smaller. -/
theorem stored6_apply (v : Vec Ideal S1x32x192x192 .f32) (u : Fin 1) (c : Fin 32) (h w : Fin 192) :
    k0_pay7 (F := Ideal) v (ix4 u c h w) = window v 0 2 u c h w :=
  window_of_readings (readsRows_up rotates_S1x32x192x192_d2 iota_S1x32x192x192_d2_w32)
    (readsCols_down rotates_S1x32x192x192_d3 iota_S1x32x192x192_d3_w32) v u c h w

/-- o = 7, shift (1, 0): rows towards larger numbers. -/
theorem stored7_apply (v : Vec Ideal S1x32x192x192 .f32) (u : Fin 1) (c : Fin 32) (h w : Fin 192) :
    k0_pay8 (F := Ideal) v (ix4 u c h w) = window v 0 1 u c h w :=
  window_of_readings (readsRows_up rotates_S1x32x192x192_d2 iota_S1x32x192x192_d2_w32) readsCols_id v u c h w

/-- o = 8, shift (1, 1): rows and columns both towards larger numbers. -/
theorem stored8_apply (v : Vec Ideal S1x32x192x192 .f32) (u : Fin 1) (c : Fin 32) (h w : Fin 192) :
    k0_pay1 (F := Ideal) v (ix4 u c h w) = window v 0 0 u c h w :=
  window_of_readings (readsRows_up rotates_S1x32x192x192_d2 iota_S1x32x192x192_d2_w32)
    (readsCols_up rotates_S1x32x192x192_d3 iota_S1x32x192x192_d3_w32) v u c h w

end Cert.Shifts

end
-- ==== Proof.KernelArray.lean ====
/-
  From blocks to the array: after the run the kernel's result array holds the nine windows of the padded argument.

  The grid has 16 × 9 points; point t = 9 b + o loads image b of the argument (block (b, 0, 0, 0) of [16, 32, 192, 192])
  and writes back block (b, o, 0, 0) of the result [16, 288, 192, 192], that is channels 32 o … 32 o + 31 of image b.
  What it writes is what branch o of the body stored: the window of the padded block starting at (rowOff o, colOff o),
  and the block being image b of the argument, that is the result's specification read through the block. Every index
  (b, C, h, w) of the result lies in the block of exactly the point 9 b + C / 32, and every point writes back, so the
  blocks cover the array.
-/
import proofs.«105961_j24275155157677_2_alg».proof.Proof.KernelBranches
import proofs.«105961_j24275155157677_2_alg».proof.Proof.KernelStored
import Idealize.ShloMosaic.Lib.Pipeline.Value

noncomputable section

namespace Cert.Shifts

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (m : (ℓ : Loc nD τ sig) → Buf (Elt Ideal) ℓ) (ρ : Dev nD → PrngReg)

/-- The two index maps over the grid: at point t the input window is at block (t / 9, 0, 0, 0) and the output window at
    block (t / 9, t % 9, 0, 0) — decided over the 144 points. -/
theorem index_facts : ∀ t : Fin cfg0.N,
    win0_0.index t (0 : Fin 4) = t.val / 9 ∧ win0_0.index t (1 : Fin 4) = 0 ∧ win0_0.index t (2 : Fin 4) = 0
    ∧ win0_0.index t (3 : Fin 4) = 0
    ∧ win0_1.index t (0 : Fin 4) = t.val / 9 ∧ win0_1.index t (1 : Fin 4) = t.val % 9 ∧ win0_1.index t (2 : Fin 4) = 0
    ∧ win0_1.index t (3 : Fin 4) = 0 :=
  (by decide +kernel : ∀ t : Fin grid0.N, _)

/-- The input block at point t is image t / 9 of the argument. -/
theorem inputBlock_apply (c : Dev nD) (t : Fin cfg0.N) (u : Fin 1) (c' : Fin 32) (k l : Fin 192) :
    iblk m c 0 t (ix4 u c' k l)
      = m ((c : Thread nD τ).loc main_arg0) (ix4 (⟨t.val / 9, by have hN : cfg0.N = 144 := N_0; have := t.isLt; omega⟩ : Fin 16) c' k l) := by
  obtain ⟨e0, e1, e2, e3, -⟩ := index_facts t
  have hu := u.isLt
  unfold iblk
  rw [View.read_apply]
  show V m c main_arg0 (((cfg0.win 0).blk t).view.emb (ix4 u c' k l)) = _
  unfold V
  refine congrArg (m ((c : Thread nD τ).loc main_arg0)) (funext fun a => Fin.ext ?_)
  match a with
  | ⟨0, _⟩ => show win0_0.index t (0 : Fin 4) * 1 + 1 * u.val = t.val / 9; omega
  | ⟨1, _⟩ => show win0_0.index t (1 : Fin 4) * 32 + 1 * c'.val = c'.val; omega
  | ⟨2, _⟩ => show win0_0.index t (2 : Fin 4) * 192 + 1 * k.val = k.val; omega
  | ⟨3, _⟩ => show win0_0.index t (3 : Fin 4) * 192 + 1 * l.val = l.val; omega

/-- What the body leaves in the output block at point t: branch o = t % 9 ran, and stored the window of the padded input
    block that starts at (rowOff o, colOff o). -/
theorem pointBlock_apply (c : Dev nD) (t : Fin cfg0.N) (o : Fin 9) (ho : t.val % 9 = o.val) (u : Fin 1) (c' : Fin 32)
    (h w : Fin 192) :
    outsAt0 m c t.val t.isLt (ix4 u c' h w) = window (iblk m c 0 t) (rowOff o) (colOff o) u c' h w :=
  match o, ho with
  | ⟨0, _⟩, ho => by
    have ho' : t.val % 9 = 0 := ho
    exact (congrFun ((outsAt0_A m c t ho' (by omega) (by omega) (by omega) (by omega) (by omega) (by omega) (by omega) (by omega)).trans
        (branch0_block (F := Ideal) c (grid0.coords t) (ms0_0 t) (hs0_0 t) (ms0_1 t) (hs0_1 t)
          ((hcond0_0 t).mpr ho')
          (fun h => (by omega : ¬t.val % 9 = 1) ((hcond0_1 t).mp h))
          (fun h => (by omega : ¬t.val % 9 = 2) ((hcond0_2 t).mp h))
          (fun h => (by omega : ¬t.val % 9 = 3) ((hcond0_3 t).mp h))
          (fun h => (by omega : ¬t.val % 9 = 4) ((hcond0_4 t).mp h))
          (fun h => (by omega : ¬t.val % 9 = 5) ((hcond0_5 t).mp h))
          (fun h => (by omega : ¬t.val % 9 = 6) ((hcond0_6 t).mp h))
          (fun h => (by omega : ¬t.val % 9 = 7) ((hcond0_7 t).mp h))
          (fun h => (by omega : ¬t.val % 9 = 8) ((hcond0_8 t).mp h))
          (iblk m c 0 t))) (ix4 u c' h w)).trans (stored0_apply (iblk m c 0 t) u c' h w)
  | ⟨1, _⟩, ho => by
    have ho' : t.val % 9 = 1 := ho
    exact (congrFun ((outsAt0_B m c t (by omega) ho' (by omega) (by omega) (by omega) (by omega) (by omega) (by omega) (by omega)).trans
        (branch1_block (F := Ideal) c (grid0.coords t) (ms0_0 t) (hs0_0 t) (ms0_1 t) (hs0_1 t)
          (fun h => (by omega : ¬t.val % 9 = 0) ((hcond0_0 t).mp h))
          ((hcond0_1 t).mpr ho')
          (fun h => (by omega : ¬t.val % 9 = 2) ((hcond0_2 t).mp h))
          (fun h => (by omega : ¬t.val % 9 = 3) ((hcond0_3 t).mp h))
          (fun h => (by omega : ¬t.val % 9 = 4) ((hcond0_4 t).mp h))
          (fun h => (by omega : ¬t.val % 9 = 5) ((hcond0_5 t).mp h))
          (fun h => (by omega : ¬t.val % 9 = 6) ((hcond0_6 t).mp h))
          (fun h => (by omega : ¬t.val % 9 = 7) ((hcond0_7 t).mp h))
          (fun h => (by omega : ¬t.val % 9 = 8) ((hcond0_8 t).mp h))
          (iblk m c 0 t))) (ix4 u c' h w)).trans (stored1_apply (iblk m c 0 t) u c' h w)
  | ⟨2, _⟩, ho => by
    have ho' : t.val % 9 = 2 := ho
    exact (congrFun ((outsAt0_C m c t (by omega) (by omega) ho' (by omega) (by omega) (by omega) (by omega) (by omega) (by omega)).trans
        (branch2_block (F := Ideal) c (grid0.coords t) (ms0_0 t) (hs0_0 t) (ms0_1 t) (hs0_1 t)
          (fun h => (by omega : ¬t.val % 9 = 0) ((hcond0_0 t).mp h))
          (fun h => (by omega : ¬t.val % 9 = 1) ((hcond0_1 t).mp h))
          ((hcond0_2 t).mpr ho')
          (fun h => (by omega : ¬t.val % 9 = 3) ((hcond0_3 t).mp h))
          (fun h => (by omega : ¬t.val % 9 = 4) ((hcond0_4 t).mp h))
          (fun h => (by omega : ¬t.val % 9 = 5) ((hcond0_5 t).mp h))
          (fun h => (by omega : ¬t.val % 9 = 6) ((hcond0_6 t).mp h))
          (fun h => (by omega : ¬t.val % 9 = 7) ((hcond0_7 t).mp h))
          (fun h => (by omega : ¬t.val % 9 = 8) ((hcond0_8 t).mp h))
          (iblk m c 0 t))) (ix4 u c' h w)).trans (stored2_apply (iblk m c 0 t) u c' h w)
  | ⟨3, _⟩, ho => by
    have ho' : t.val % 9 = 3 := ho
    exact (congrFun ((outsAt0_D m c t (by omega) (by omega) (by omega) ho' (by omega) (by omega) (by omega) (by omega) (by omega)).trans
        (branch3_block (F := Ideal) c (grid0.coords t) (ms0_0 t) (hs0_0 t) (ms0_1 t) (hs0_1 t)
          (fun h => (by omega : ¬t.val % 9 = 0) ((hcond0_0 t).mp h))
          (fun h => (by omega : ¬t.val % 9 = 1) ((hcond0_1 t).mp h))
          (fun h => (by omega : ¬t.val % 9 = 2) ((hcond0_2 t).mp h))
          ((hcond0_3 t).mpr ho')
          (fun h => (by omega : ¬t.val % 9 = 4) ((hcond0_4 t).mp h))
          (fun h => (by omega : ¬t.val % 9 = 5) ((hcond0_5 t).mp h))
          (fun h => (by omega : ¬t.val % 9 = 6) ((hcond0_6 t).mp h))
          (fun h => (by omega : ¬t.val % 9 = 7) ((hcond0_7 t).mp h))
          (fun h => (by omega : ¬t.val % 9 = 8) ((hcond0_8 t).mp h))
          (iblk m c 0 t))) (ix4 u c' h w)).trans (stored3_apply (iblk m c 0 t) u c' h w)
  | ⟨4, _⟩, ho => by
    have ho' : t.val % 9 = 4 := ho
    exact (congrFun ((outsAt0_E m c t (by omega) (by omega) (by omega) (by omega) ho' (by omega) (by omega) (by omega) (by omega)).trans
        (branch4_block (F := Ideal) c (grid0.coords t) (ms0_0 t) (hs0_0 t) (ms0_1 t) (hs0_1 t)
          (fun h => (by omega : ¬t.val % 9 = 0) ((hcond0_0 t).mp h))
          (fun h => (by omega : ¬t.val % 9 = 1) ((hcond0_1 t).mp h))
          (fun h => (by omega : ¬t.val % 9 = 2) ((hcond0_2 t).mp h))
          (fun h => (by omega : ¬t.val % 9 = 3) ((hcond0_3 t).mp h))
          ((hcond0_4 t).mpr ho')
          (fun h => (by omega : ¬t.val % 9 = 5) ((hcond0_5 t).mp h))
          (fun h => (by omega : ¬t.val % 9 = 6) ((hcond0_6 t).mp h))
          (fun h => (by omega : ¬t.val % 9 = 7) ((hcond0_7 t).mp h))
          (fun h => (by omega : ¬t.val % 9 = 8) ((hcond0_8 t).mp h))
          (iblk m c 0 t))) (ix4 u c' h w)).trans (stored4_apply (iblk m c 0 t) u c' h w)
  | ⟨5, _⟩, ho => by
    have ho' : t.val % 9 = 5 := ho
    exact (congrFun ((outsAt0_F m c t (by omega) (by omega) (by omega) (by omega) (by omega) ho' (by omega) (by omega) (by omega)).trans
        (branch5_block (F := Ideal) c (grid0.coords t) (ms0_0 t) (hs0_0 t) (ms0_1 t) (hs0_1 t)
          (fun h => (by omega : ¬t.val % 9 = 0) ((hcond0_0 t).mp h))
          (fun h => (by omega : ¬t.val % 9 = 1) ((hcond0_1 t).mp h))
          (fun h => (by omega : ¬t.val % 9 = 2) ((hcond0_2 t).mp h))
          (fun h => (by omega : ¬t.val % 9 = 3) ((hcond0_3 t).mp h))
          (fun h => (by omega : ¬t.val % 9 = 4) ((hcond0_4 t).mp h))
          ((hcond0_5 t).mpr ho')
          (fun h => (by omega : ¬t.val % 9 = 6) ((hcond0_6 t).mp h))
          (fun h => (by omega : ¬t.val % 9 = 7) ((hcond0_7 t).mp h))
          (fun h => (by omega : ¬t.val % 9 = 8) ((hcond0_8 t).mp h))
          (iblk m c 0 t))) (ix4 u c' h w)).trans (stored5_apply (iblk m c 0 t) u c' h w)
  | ⟨6, _⟩, ho => by
    have ho' : t.val % 9 = 6 := ho
    exact (congrFun ((outsAt0_G m c t (by omega) (by omega) (by omega) (by omega) (by omega) (by omega) ho' (by omega) (by omega)).trans
        (branch6_block (F := Ideal) c (grid0.coords t) (ms0_0 t) (hs0_0 t) (ms0_1 t) (hs0_1 t)
          (fun h => (by omega : ¬t.val % 9 = 0) ((hcond0_0 t).mp h))
          (fun h => (by omega : ¬t.val % 9 = 1) ((hcond0_1 t).mp h))
          (fun h => (by omega : ¬t.val % 9 = 2) ((hcond0_2 t).mp h))
          (fun h => (by omega : ¬t.val % 9 = 3) ((hcond0_3 t).mp h))
          (fun h => (by omega : ¬t.val % 9 = 4) ((hcond0_4 t).mp h))
          (fun h => (by omega : ¬t.val % 9 = 5) ((hcond0_5 t).mp h))
          ((hcond0_6 t).mpr ho')
          (fun h => (by omega : ¬t.val % 9 = 7) ((hcond0_7 t).mp h))
          (fun h => (by omega : ¬t.val % 9 = 8) ((hcond0_8 t).mp h))
          (iblk m c 0 t))) (ix4 u c' h w)).trans (stored6_apply (iblk m c 0 t) u c' h w)
  | ⟨7, _⟩, ho => by
    have ho' : t.val % 9 = 7 := ho
    exact (congrFun ((outsAt0_H m c t (by omega) (by omega) (by omega) (by omega) (by omega) (by omega) (by omega) ho' (by omega)).trans
        (branch7_block (F := Ideal) c (grid0.coords t) (ms0_0 t) (hs0_0 t) (ms0_1 t) (hs0_1 t)
          (fun h => (by omega : ¬t.val % 9 = 0) ((hcond0_0 t).mp h))
          (fun h => (by omega : ¬t.val % 9 = 1) ((hcond0_1 t).mp h))
          (fun h => (by omega : ¬t.val % 9 = 2) ((hcond0_2 t).mp h))
          (fun h => (by omega : ¬t.val % 9 = 3) ((hcond0_3 t).mp h))
          (fun h => (by omega : ¬t.val % 9 = 4) ((hcond0_4 t).mp h))
          (fun h => (by omega : ¬t.val % 9 = 5) ((hcond0_5 t).mp h))
          (fun h => (by omega : ¬t.val % 9 = 6) ((hcond0_6 t).mp h))
          ((hcond0_7 t).mpr ho')
          (fun h => (by omega : ¬t.val % 9 = 8) ((hcond0_8 t).mp h))
          (iblk m c 0 t))) (ix4 u c' h w)).trans (stored7_apply (iblk m c 0 t) u c' h w)
  | ⟨8, _⟩, ho => by
    have ho' : t.val % 9 = 8 := ho
    exact (congrFun ((outsAt0_I m c t (by omega) (by omega) (by omega) (by omega) (by omega) (by omega) (by omega) (by omega) ho').trans
        (branch8_block (F := Ideal) c (grid0.coords t) (ms0_0 t) (hs0_0 t) (ms0_1 t) (hs0_1 t)
          (fun h => (by omega : ¬t.val % 9 = 0) ((hcond0_0 t).mp h))
          (fun h => (by omega : ¬t.val % 9 = 1) ((hcond0_1 t).mp h))
          (fun h => (by omega : ¬t.val % 9 = 2) ((hcond0_2 t).mp h))
          (fun h => (by omega : ¬t.val % 9 = 3) ((hcond0_3 t).mp h))
          (fun h => (by omega : ¬t.val % 9 = 4) ((hcond0_4 t).mp h))
          (fun h => (by omega : ¬t.val % 9 = 5) ((hcond0_5 t).mp h))
          (fun h => (by omega : ¬t.val % 9 = 6) ((hcond0_6 t).mp h))
          (fun h => (by omega : ¬t.val % 9 = 7) ((hcond0_7 t).mp h))
          ((hcond0_8 t).mpr ho')
          (iblk m c 0 t))) (ix4 u c' h w)).trans (stored8_apply (iblk m c 0 t) u c' h w)

/-- The same at the array's coordinates: at a block index z of point t that sits at the array index i, the block holds
    the result's specification at i. -/
theorem point_eq (c : Dev nD) (t : Fin cfg0.N) (z : S1x32x192x192.Idx) (i : S16x288x192x192.Idx)
    (h0 : (i 0).val = t.val / 9) (h1 : (i 1).val = 32 * (t.val % 9) + (z 1).val) (h2 : (i 2).val = (z 2).val)
    (h3 : (i 3).val = (z 3).val) :
    outsAt0 m c t.val t.isLt z = shifts (m ((c : Thread nD τ).loc main_arg0)) i := by
  have ht : t.val < 144 := by have hN : cfg0.N = 144 := N_0; have := t.isLt; omega
  obtain ⟨u, c', h, w, rfl⟩ : ∃ (u : Fin 1) (c' : Fin 32) (h w : Fin 192), z = ix4 u c' h w :=
    ⟨z 0, z 1, z 2, z 3, eq_ix4 z⟩
  have hc' := c'.isLt
  have hi : i = ix4 (⟨t.val / 9, by omega⟩ : Fin 16)
      (⟨32 * (⟨t.val % 9, by omega⟩ : Fin 9).val + c'.val, by show 32 * (t.val % 9) + c'.val < 288; omega⟩ : Fin 288) h w :=
    funext fun a => match a with
      | ⟨0, _⟩ => Fin.ext h0
      | ⟨1, _⟩ => Fin.ext h1
      | ⟨2, _⟩ => Fin.ext h2
      | ⟨3, _⟩ => Fin.ext h3
  rw [hi, pointBlock_apply m c t ⟨t.val % 9, by omega⟩ rfl, shifts_apply]
  exact padded_congr (fun k l => inputBlock_apply m c t u c' k l) _ _

/-- What point t writes back is block t of the result's specification. -/
theorem flushed_eq (c : Dev nD) (t : Fin cfg0.N) :
    (dats m 0 c).flushed 1 t
      = ((cfg0.win 1).blk t).view.read (Elt Ideal) (shifts (m ((c : Thread nD τ).loc main_arg0))) := by
  obtain ⟨-, -, -, -, e0, e1, e2, e3⟩ := index_facts t
  show (cfg0.win 1).cut (grid0.coords t) ((dats m 0 c).after 1 t) = _
  rw [after0_1]
  funext y
  have hy0 : (y 0).val < 1 := (y 0).isLt
  have hy1 : (y 1).val < 32 := (y 1).isLt
  have hy2 : (y 2).val < 192 := (y 2).isLt
  have hy3 : (y 3).val < 192 := (y 3).isLt
  rw [View.read_apply]
  exact point_eq m c t ((cfg0.win 1).xinj (grid0.coords t) y) (((cfg0.win 1).blk t).view.emb y)
    (by show win0_1.index t (0 : Fin 4) * 1 + 1 * (y 0).val = t.val / 9; omega)
    (by show win0_1.index t (1 : Fin 4) * 32 + 1 * (y 1).val = 32 * (t.val % 9) + (y 1).val; omega)
    (by show win0_1.index t (2 : Fin 4) * 192 + 1 * (y 2).val = (y 2).val; omega)
    (by show win0_1.index t (3 : Fin 4) * 192 + 1 * (y 3).val = (y 3).val; omega)

/-- An index of the result is in point t's block iff each coordinate is in the block's range on its axis. -/
theorem mem_block (t : Fin cfg0.N) (i : S16x288x192x192.Idx) :
    i ∈ ((cfg0.win 1).blk t).view.set ↔ ∀ a : Fin 4, win0_1.index t a * S1x32x192x192.size a ≤ (i a).val
      ∧ (i a).val < win0_1.index t a * S1x32x192x192.size a + S1x32x192x192.size a := by
  show i ∈ ((View.whole main_v0).slice (win0_1.rect t)).set ↔ _
  rw [View.set_slice_whole, Rect.mem_set_unit]
  exact Iff.rfl

/-- Every index (b, C, h, w) of the result is in the block of the point 9 b + C / 32, which writes back. -/
theorem covered (i : S16x288x192x192.Idx) :
    ∃ t : Fin cfg0.N, (cfg0.win 1).flush t = true ∧ i ∈ ((cfg0.win 1).blk t).view.set := by
  have hi0 : (i 0).val < 16 := (i 0).isLt
  have hi1 : (i 1).val < 288 := (i 1).isLt
  have hi2 : (i 2).val < 192 := (i 2).isLt
  have hi3 : (i 3).val < 192 := (i 3).isLt
  obtain ⟨t, tv⟩ : ∃ t : Fin cfg0.N, t.val = 9 * (i 0).val + (i 1).val / 32 :=
    ⟨⟨9 * (i 0).val + (i 1).val / 32, by rw [show cfg0.N = 144 from N_0]; omega⟩, rfl⟩
  obtain ⟨-, -, -, -, e0, e1, e2, e3⟩ := index_facts t
  refine ⟨t, flush0_1 t, ?_⟩
  rw [mem_block]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 32 ≤ (i 1).val ∧ (i 1).val < win0_1.index t (1 : Fin 4) * 32 + 32; omega
  | ⟨2, _⟩ => show win0_1.index t (2 : Fin 4) * 192 ≤ (i 2).val ∧ (i 2).val < win0_1.index t (2 : Fin 4) * 192 + 192; omega
  | ⟨3, _⟩ => show win0_1.index t (3 : Fin 4) * 192 ≤ (i 3).val ∧ (i 3).val < win0_1.index t (3 : Fin 4) * 192 + 192; omega

/-- The result array after the run: the nine windows of the padded argument. -/
theorem finalArray (c : Dev nD) :
    (dats m 0 c).arrAt 1 cfg0.N = shifts (m ((c : Thread nD τ).loc main_arg0)) :=
  (dats m 0 c).arrAt_eq_of_cover 1 (shifts (m ((c : Thread nD τ).loc main_arg0))) (fun t _ => flushed_eq m c t) covered

/-- The kernel's run, read: every weakly fair execution terminates with the result array at the nine windows of the padded
    argument and the argument unchanged. -/
theorem kernel_run : θ_run defs (onTc (τ := τ) (main (F := Ideal))) ⟨m, fun _ => 0, ρ⟩ fun r => ∀ c : Dev nD,
      r.2.mem ((c : Thread nD τ).loc main_v0) = shifts (m ((c : Thread nD τ).loc main_arg0))
      ∧ r.2.mem ((c : Thread nD τ).loc main_arg0) = m ((c : Thread nD τ).loc main_arg0) :=
  (θ_run defs _ _).mono (fun r h c => ⟨((h c).1 1).trans (finalArray m c),
      ((h c).1 0).trans (((dats m 0 c).arrAt_in 0 rfl _).trans ((A_eq m c 0).trans (V_main_arg0 m c)))⟩)
    (run_main m ρ)

end Cert.Shifts

end
-- ==== Proof.ReferenceWindows.lean ====
/-
  The reference's result is the nine windows of the zero-padded argument.

  The reference pads the argument x with one ring of zeros along its last two axes (the pad value is the integer 0
  converted to a float: the number zero), cuts nine [192, 192] slices out of the padded [194, 194] planes, at the
  offsets (1 - sx, 1 - sy) of the nine shifts, and concatenates them along the channel axis. A slice at offset
  (dr, dc) of the padded array is by definition the window starting at (dr, dc), and channel 32 * o + c of the
  concatenation is channel c of slice o.
-/
import proofs.«105961_j24275155157677_2_alg».proof.Proof.Gen.ReferenceIdeal.Read
import proofs.«105961_j24275155157677_2_alg».proof.Proof.ShiftSpec
import Idealize.ShloMosaic.Lib.Pipeline.Value

noncomputable section

namespace Cert.Shifts

open Idealize.ShloMosaic Idealize.ShloMosaic.ValueIdx
open Cert.ReferenceIdeal Cert.ReferenceIdeal.Gen Cert.ReferenceIdeal.Read

/-- The pad value: the integer zero as a float is the number zero. -/
theorem padValue_eq (i : S_.Idx) : val_main_call0_v0 (F := Ideal) i = 0 := by
  show (((0#32 : BitVec 32).toInt : ℝ) : EReal) = 0
  simp

/-- The padded array at coordinates (b, c, k, l) of [16, 32, 194, 194] is the padded plane's entry (k, l). -/
theorem pad_apply (x : (Img 16).Idx → EReal) (b : Fin 16) (c : Fin 32) (k l : Fin 194) :
    val_main_v0 (F := Ideal) x (ix4 b c k l) = padded x b c k.val l.val := by
  have hb := b.isLt; have hc := c.isLt; have hk194 := k.isLt; have hl194 := l.isLt
  unfold val_main_v0 pad padded
  split
  · rename_i hin
    have h2 := hin ⟨2, by decide⟩
    have h3 := hin ⟨3, by decide⟩
    change 1 ≤ k.val ∧ (k.val - 1) % (0 + 1) = 0 ∧ (k.val - 1) / (0 + 1) < 192 at h2
    change 1 ≤ l.val ∧ (l.val - 1) % (0 + 1) = 0 ∧ (l.val - 1) / (0 + 1) < 192 at h3
    have hk : 1 ≤ k.val ∧ k.val ≤ 192 := by omega
    have hl : 1 ≤ l.val ∧ l.val ≤ 192 := by omega
    rw [dif_pos hl, dif_pos hk]
    refine congrArg x (funext fun a => ?_)
    match a with
    | ⟨0, _⟩ => exact Fin.ext (by show (b.val - 0) / (0 + 1) = b.val; omega)
    | ⟨1, _⟩ => exact Fin.ext (by show (c.val - 0) / (0 + 1) = c.val; omega)
    | ⟨2, _⟩ => exact Fin.ext (by show (k.val - 1) / (0 + 1) = k.val - 1; omega)
    | ⟨3, _⟩ => exact Fin.ext (by show (l.val - 1) / (0 + 1) = l.val - 1; omega)
  · rename_i hin
    rw [padValue_eq]
    by_cases hl : 1 ≤ l.val ∧ l.val ≤ 192
    · by_cases hk : 1 ≤ k.val ∧ k.val ≤ 192
      · exfalso
        apply hin
        intro a
        match a with
        | ⟨0, _⟩ => show 0 ≤ b.val ∧ (b.val - 0) % (0 + 1) = 0 ∧ (b.val - 0) / (0 + 1) < 16; omega
        | ⟨1, _⟩ => show 0 ≤ c.val ∧ (c.val - 0) % (0 + 1) = 0 ∧ (c.val - 0) / (0 + 1) < 32; omega
        | ⟨2, _⟩ => show 1 ≤ k.val ∧ (k.val - 1) % (0 + 1) = 0 ∧ (k.val - 1) / (0 + 1) < 192; omega
        | ⟨3, _⟩ => show 1 ≤ l.val ∧ (l.val - 1) % (0 + 1) = 0 ∧ (l.val - 1) / (0 + 1) < 192; omega
      · rw [dif_pos hl, dif_neg hk]
    · rw [dif_neg hl]

/-- A [192, 192] slice of the padded array at offset (dr, dc) is the window of the padded image starting there. -/
theorem slice_apply (x : (Img 16).Idx → EReal) (dr dc : Nat) (hdr : dr ≤ 2) (hdc : dc ≤ 2)
    (hs : S16x32x194x194.Slices ![0, 0, dr, dc] S16x32x192x192) (b : Fin 16) (c : Fin 32) (h w : Fin 192) :
    extractStridedSlice S16x32x192x192 ![0, 0, dr, dc] (val_main_v0 (F := Ideal) x) hs (ix4 b c h w)
      = window x dr dc b c h w := by
  have hh := h.isLt; have hw := w.isLt
  rw [extractStridedSlice_apply _ _ hs (ix4 b c h w) (ix4 b c ⟨dr + h.val, by omega⟩ ⟨dc + w.val, by omega⟩)
    (fun a => match a with
      | ⟨0, _⟩ => by show b.val = 0 + b.val; omega
      | ⟨1, _⟩ => by show c.val = 0 + c.val; omega
      | ⟨2, _⟩ => rfl
      | ⟨3, _⟩ => rfl)]
  rw [pad_apply]
  show padded x b c (dr + h.val) (dc + w.val) = padded x b c (h.val + dr) (w.val + dc)
  rw [Nat.add_comm dr, Nat.add_comm dc]

/-- The nine slices, in the order of the concatenation. -/
def pieces (x : (⟨S16x32x192x192, .f32⟩ : BufTy).Contents (Elt Ideal)) :
    Fin 9 → (⟨S16x32x192x192, .f32⟩ : BufTy).Contents (Elt Ideal) :=
  ![val_main_v1 (F := Ideal) x, val_main_v2 (F := Ideal) x, val_main_v3 (F := Ideal) x, val_main_v4 (F := Ideal) x,
    val_main_v5 (F := Ideal) x, val_main_v6 (F := Ideal) x, val_main_v7 (F := Ideal) x, val_main_v8 (F := Ideal) x,
    val_main_v9 (F := Ideal) x]

/-- Slice o is the window starting at (rowOff o, colOff o). -/
theorem piece_apply (x : (Img 16).Idx → EReal) (o : Fin 9) (b : Fin 16) (c : Fin 32) (h w : Fin 192) :
    pieces x o (ix4 b c h w) = window x (rowOff o) (colOff o) b c h w :=
  match o with
  | ⟨0, _⟩ => slice_apply x 1 1 (by omega) (by omega) Gen.slices_S16x32x194x194_S16x32x192x192_0_0_1_1 b c h w
  | ⟨1, _⟩ => slice_apply x 2 2 (by omega) (by omega) Gen.slices_S16x32x194x194_S16x32x192x192_0_0_2_2 b c h w
  | ⟨2, _⟩ => slice_apply x 2 1 (by omega) (by omega) Gen.slices_S16x32x194x194_S16x32x192x192_0_0_2_1 b c h w
  | ⟨3, _⟩ => slice_apply x 2 0 (by omega) (by omega) Gen.slices_S16x32x194x194_S16x32x192x192_0_0_2_0 b c h w
  | ⟨4, _⟩ => slice_apply x 1 2 (by omega) (by omega) Gen.slices_S16x32x194x194_S16x32x192x192_0_0_1_2 b c h w
  | ⟨5, _⟩ => slice_apply x 1 0 (by omega) (by omega) Gen.slices_S16x32x194x194_S16x32x192x192_0_0_1_0 b c h w
  | ⟨6, _⟩ => slice_apply x 0 2 (by omega) (by omega) Gen.slices_S16x32x194x194_S16x32x192x192_0_0_0_2 b c h w
  | ⟨7, _⟩ => slice_apply x 0 1 (by omega) (by omega) Gen.slices_S16x32x194x194_S16x32x192x192_0_0_0_1 b c h w
  | ⟨8, _⟩ => slice_apply x 0 0 (by omega) (by omega) Gen.slices_S16x32x194x194_S16x32x192x192_0_0_0_0 b c h w

/-- The reference's result: the nine windows side by side along the channel axis. -/
theorem reference_eq (x : (Img 16).Idx → EReal) : val_main_v10 (F := Ideal) x = shifts x := by
  funext j
  obtain ⟨b, C, h, w, rfl⟩ : ∃ (b : Fin 16) (C : Fin 288) (h w : Fin 192), j = ix4 b C h w :=
    ⟨j 0, j 1, j 2, j 3, eq_ix4 j⟩
  obtain ⟨o, c, rfl⟩ : ∃ (o : Fin 9) (c : Fin 32),
      C = ⟨32 * o.val + c.val, by have := o.isLt; have := c.isLt; omega⟩ :=
    ⟨⟨C.val / 32, by have := C.isLt; omega⟩, ⟨C.val % 32, Nat.mod_lt _ (by decide)⟩,
      Fin.ext (by show C.val = 32 * (C.val / 32) + C.val % 32; omega)⟩
  have ho := o.isLt; have hc := c.isLt
  rw [shifts_apply, ← piece_apply x o b c h w]
  exact concatenate_ofFn_apply (t := S16x288x192x192) (s₁ := S16x32x192x192) 1 (pieces x)
    concatenates_S16x32x192x192_S16x32x192x192_S16x32x192x192_S16x32x192x192_S16x32x192x192_S16x32x192x192_S16x32x192x192_S16x32x192x192_S16x32x192x192_S16x288x192x192_d1 rfl 32 rfl
    (ix4 b (⟨32 * o.val + c.val, by omega⟩ : Fin 288) h w) o (by show (32 * o.val + c.val) / 32 = o.val; omega)
    (ix4 b c h w) (by show c.val = (32 * o.val + c.val) % 32; omega)
    (fun a ha => match a with
      | ⟨0, _⟩ => rfl
      | ⟨1, _⟩ => absurd rfl ha
      | ⟨2, _⟩ => rfl
      | ⟨3, _⟩ => rfl)

end Cert.Shifts

end
-- ==== Proof.lean ====
/-
  Nine zero-filled shifts of an image stack: the kernel against its reference, over the extended reals.

  For x : [16, 32, 192, 192] both programs produce y : [16, 288, 192, 192] with, for channel C = 32 o + c,
      y (b, C, h, w) = x (b, c, h - sx, w - sy)  where that entry exists, and 0 otherwise,
  (sx, sy) the o-th of the shifts (0,0), (-1,-1), (-1,0), (-1,1), (0,-1), (0,1), (1,-1), (1,0), (1,1). Written with the
  image surrounded by one ring of zeros, y (b, C, h, w) is the padded plane's entry (h + 1 - sx, w + 1 - sy): the
  specification `Cert.Shifts.shifts`.

  The reference does exactly that: it pads, cuts nine slices at the offsets (1 - sx, 1 - sy) and concatenates them. The kernel
  runs a grid of 16 × 9 points; point (b, o) loads image b and stores, into channels 32 o … 32 o + 31 of image b of the
  result, the image rotated cyclically by one position along the rows and/or the columns as the shift says, with the
  position the wrapped-around entry lands on overwritten by zero. A rotation by one followed by that mask is the shift
  with zero fill, so each stored block is a window of the padded image, and the blocks tile the result.

  No arithmetic is done on the entries — each result entry is an entry of x or the number zero (the kernel's zero word, and
  the reference's integer 0 converted to a float, both the real number 0) — so the two results are equal for every input,
  the infinite ones included; the precondition is not used. The idealization rewrote nothing, so its claim is trivial.
-/
import proofs.«105961_j24275155157677_2_alg».proof.Defs
import proofs.«105961_j24275155157677_2_alg».proof.Proof.Gen.Kernel
import proofs.«105961_j24275155157677_2_alg».proof.Proof.Gen.Kernel.Skeleton
import proofs.«105961_j24275155157677_2_alg».proof.Proof.Gen.Kernel.Launch
import proofs.«105961_j24275155157677_2_alg».proof.Proof.Gen.Kernel.Points
import proofs.«105961_j24275155157677_2_alg».proof.Proof.Patched.Kernel.Frame
import proofs.«105961_j24275155157677_2_alg».proof.Proof.Gen.KernelIdeal
import proofs.«105961_j24275155157677_2_alg».proof.Proof.Gen.KernelIdeal.Skeleton
import proofs.«105961_j24275155157677_2_alg».proof.Proof.Gen.KernelIdeal.Launch
import proofs.«105961_j24275155157677_2_alg».proof.Proof.Gen.KernelIdeal.Points
import proofs.«105961_j24275155157677_2_alg».proof.Proof.Patched.KernelIdeal.Frame
import proofs.«105961_j24275155157677_2_alg».proof.Proof.Gen.ReferenceIdeal
import proofs.«105961_j24275155157677_2_alg».proof.Proof.Gen.Pre_finite_inputs
import proofs.«105961_j24275155157677_2_alg».proof.Proof.Gen.ReferenceIdeal.Run
import proofs.«105961_j24275155157677_2_alg».proof.Proof.Gen.ReferenceIdeal.Read
import proofs.«105961_j24275155157677_2_alg».proof.Proof.KernelArray
import proofs.«105961_j24275155157677_2_alg».proof.Proof.ReferenceWindows
import Idealize.ShloMosaic.Adequacy
import Idealize.ShloMosaic.Init

noncomputable section

namespace Cert.Proof

open Idealize.ShloMosaic Idealize.SL.Sem

/-- The kernel as printed runs to the end and leaves its argument as it was. -/
theorem frame_kernel : Cert.frame_Kernel := fun m ρ _ => Cert.Kernel.GenP.frame m ρ

/-- So does the kernel read over the extended reals. -/
theorem frame_kernelIdeal : Cert.frame_KernelIdeal := fun m ρ _ => Cert.KernelIdeal.GenP.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result array ends at the nine windows of its padded argument, and the
    reference's at the nine windows of an argument that agrees: one function of equal arguments. -/
theorem algebraic : Cert.algebraic_KernelIdeal_ReferenceIdeal := by
  intro m ρ m' ρ' _ hagree
  refine ⟨fun c => Cert.Shifts.shifts (m ((c.tc : Thread Cert.KernelIdeal.nD Cert.KernelIdeal.τ).loc Cert.KernelIdeal.main_arg0)),
    Cert.Shifts.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.Shifts.reference_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
